-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x1024 .f32) (main_arg1 : FVec F S128x1024 .f32) (main_arg2 : FVec F S1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S128x1024 : Shape := ⟨2, ![128, 1024]⟩
abbrev S1024x1024 : Shape := ⟨2, ![1024, 1024]⟩
abbrev S128x128 : Shape := ⟨2, ![128, 128]⟩

abbrev nBuf : Space → Nat
  | .hbm => 4
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S1024x1024, .f32⟩
  | .local _ .vmem, ⟨0, _⟩ => ⟨S128x128, .f32⟩
  | .local _ .vmem, ⟨1, _⟩ => ⟨S128x128, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  dot_S128x128_S128x1024_S128x1024_0_0_1_1_n_n_wf : DotDims.WF S128x128 S128x1024 S128x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x1024.size a
  hwx0_0 : ∀ i : grid0.Coords, EltTy.bits .f32 = 32 ∨ (Rect.block (s := S128x1024) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x1024.size a
  hwx0_2 : ∀ i : grid0.Coords, EltTy.bits .f32 = 32 ∨ (Rect.block (s := S1024x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S1024x1024.size a
  hwx0_3 : ∀ i : grid0.Coords, EltTy.bits .f32 = 32 ∨ (Rect.block (s := S1024x1024) S128x1024.size (cc0_transform_3 i) (hinb0_3 i)).WholeWords (EltTy.packing .f32)

variable [Facts₀]

def dot_S128x128_S128x1024_S128x1024_0_0_1_1_n_n : DotDims S128x128 S128x1024 S128x1024 where
  lhsContracting := [0]
  rhsContracting := [0]
  lhsNonContracting := [1]
  rhsNonContracting := [1]
  lhsBatch := []
  rhsBatch := []
  wf := dot_S128x128_S128x1024_S128x1024_0_0_1_1_n_n_wf

abbrev win0_0 : Pipeline.Window sig grid0 :=
  Pipeline.Window.ofSpec (Memref.whole main_arg1) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x1024 : Shape := ⟨2, ![128, 1024]⟩
abbrev S1024x1024 : Shape := ⟨2, ![1024, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  dot_S128x1024_S128x1024_S1024x1024_0_0_1_1_n_n_wf : DotDims.WF S128x1024 S128x1024 S1024x1024 [0] [0] [1] [1] [] []

variable [Facts₀]

def dot_S128x1024_S128x1024_S1024x1024_0_0_1_1_n_n : DotDims S128x1024 S128x1024 S1024x1024 where
  lhsContracting := [0]
  rhsContracting := [0]
  lhsNonContracting := [1]
  rhsNonContracting := [1]
  lhsBatch := []
  rhsBatch := []
  wf := dot_S128x1024_S128x1024_S1024x1024_0_0_1_1_n_n_wf

class Facts : Prop extends Facts₀ where

variable [Facts]
-- ==== Proof.HebbianRule.lean ====
/-
  The Hebbian weight update as ONE function of the three argument arrays, index by index, on the extended reals.

  With `pre`, `post` of shape [128, 1024] (a batch of 128 samples, 1024 units each) and `w` of shape [1024, 1024], the
  update at (p, q) is

      η · ( (∑ b, post(b, p) · pre(b, q)) · 2⁻⁷  −  λ · w(p, q) ),

  where η and λ are the two single-precision words the programs both spell (the learning rate and the weight decay):
  they are never evaluated, being the same word on both sides. The batch mean is where the two programs differ in
  spelling: one multiplies the batch sum by the word of 2⁻⁷ = 1/128, the other divides it by the word of 128. Both
  words are exact (a power of two is representable), and on the extended reals dividing by a nonzero real IS
  multiplying by its reciprocal — at ±∞ too — so the two spellings are one function (`mul_inv128_eq_div128`). No
  finiteness of the inputs is needed for it.
-/
import Idealize.ShloMosaic.PureOps.Ideal
import Idealize.ShloMosaic.Lib.ValueIdx

noncomputable section

namespace Cert.Hebbian

open Idealize.ShloMosaic Idealize.ShloMosaic.ValueIdx

/-- The word `0x43000000` denotes the real 128: sign 0, exponent field 134 = 127 + 7, fraction 0. -/
theorem ofBits_128 : Ideal.ofBits .f32 0x43000000#32 = ((128 : ℝ) : EReal) := by
  simp [Ideal.ofBits, Ideal.ieee, -EReal.coe_mul]; norm_num

/-- The word `0x3C000000` denotes the real 1/128 = 2⁻⁷: sign 0, exponent field 120 = 127 − 7, fraction 0. -/
theorem ofBits_inv128 : Ideal.ofBits .f32 0x3C000000#32 = ((1 / 128 : ℝ) : EReal) := by
  simp [Ideal.ofBits, Ideal.ieee, -EReal.coe_mul]; norm_num

/-- THE LAW joining the two sides: the product with 2⁻⁷ is the quotient by 128, for every extended real (the
    quotient by a nonzero real is the product with its reciprocal, the infinities included). -/
theorem mul_inv128_eq_div128 (e : EReal) :
    e * Ideal.ofBits .f32 0x3C000000#32 = Ideal.div e (Ideal.ofBits .f32 0x43000000#32) := by
  rw [ofBits_128, ofBits_inv128, Ideal.div_coe (by norm_num : (128 : ℝ) ≠ 0)]

/-- The batch sum of the outer products at (p, q): `∑ b, post(b, p) · pre(b, q)`. -/
def corr (pre post : (⟨2, ![128, 1024]⟩ : Shape).Idx → EReal) (p q : Fin 1024) : EReal :=
  ∑ b : Fin 128, post (ix2 b p) * pre (ix2 b q)

/-- The update at an index: `η · (corr(p, q) · 2⁻⁷ − λ · w(p, q))`, with the batch mean spelled as a product. -/
def update (pre post : (⟨2, ![128, 1024]⟩ : Shape).Idx → EReal) (w : (⟨2, ![1024, 1024]⟩ : Shape).Idx → EReal) :
    (⟨2, ![1024, 1024]⟩ : Shape).Idx → EReal := fun i =>
  Ideal.ofBits .f32 0x3BA3D70A#32 *
    (corr pre post (i 0) (i 1) * Ideal.ofBits .f32 0x3C000000#32 - Ideal.ofBits .f32 0x38D1B717#32 * w i)

end Cert.Hebbian

end
-- ==== Proof.BlockUpdate.lean ====
/-
  What the kernel body computes for one block of rows, read at an index.

  At a grid point the body holds three loaded blocks: `postB` of shape [128, 128] (all 128 samples, the point's 128
  post-synaptic units), `pre` of shape [128, 1024] (the whole array) and `wB` of shape [128, 1024] (the point's 128
  rows of the weights). Its one stored value, at row r and column q of the block, is

      η · ( (∑ b, postB(b, r) · pre(b, q)) · 2⁻⁷  −  λ · wB(r, q) ):

  the two roundings to the narrow format are the identity on the extended reals, the matrix product into a zero
  accumulator contracts the FIRST axis of both operands (the batch), and every other operation is pointwise.
-/
import proofs.«158058_j56221121904852_2_alg».proof.Proof.Gen.KernelIdeal.Skeleton
import proofs.«158058_j56221121904852_2_alg».proof.Proof.HebbianRule
import Idealize.ShloMosaic.Lib.ValueIdx
import Idealize.ShloMosaic.PureOps.Ideal.Laws

noncomputable section

namespace Cert.Hebbian.Block

open Cert.KernelIdeal Cert.KernelIdeal.Gen Idealize.ShloMosaic Idealize.ShloMosaic.ValueIdx

/-- The body's matrix product: both operands contracted along their first axis. -/
abbrev prod := dot_S128x128_S128x1024_S128x1024_0_0_1_1_n_n

/-- The left operand is read, along its contracted axis, at the contraction position; -/
theorem lhs_contr (j : S128x1024.Idx) (k : prod.contr.Idx) :
    (prod.lhsIdx j k 0).val = (k ⟨0, by decide⟩).val :=
  prod.lhsIdx_val_of_single rfl j k

/-- along its free axis, at the output's row. -/
theorem lhs_free (j : S128x1024.Idx) (k : prod.contr.Idx) : (prod.lhsIdx j k 1).val = (j 0).val := by
  unfold DotDims.lhsIdx
  rw [dif_neg (show ¬(1 : Fin S128x128.rank) ∈ prod.lhsBatch by decide),
    dif_pos (show (1 : Fin S128x128.rank) ∈ prod.lhsNonContracting by decide)]
  rfl

/-- The right operand is read, along its contracted axis, at the contraction position; -/
theorem rhs_contr (j : S128x1024.Idx) (k : prod.contr.Idx) :
    (prod.rhsIdx j k 0).val = (k ⟨0, by decide⟩).val :=
  prod.rhsIdx_val_of_single rfl j k

/-- along its free axis, at the output's column. -/
theorem rhs_free (j : S128x1024.Idx) (k : prod.contr.Idx) : (prod.rhsIdx j k 1).val = (j 1).val := by
  unfold DotDims.rhsIdx
  rw [dif_neg (show ¬(1 : Fin S128x1024.rank) ∈ prod.rhsBatch by decide),
    dif_pos (show (1 : Fin S128x1024.rank) ∈ prod.rhsNonContracting by decide)]
  rfl

/-- The product into the zero accumulator, at (r, q), is the batch sum `∑ b, lhs(b, r) · rhs(b, q)`: the sum over
    the one-axis contraction shape re-indexed by the batch entry. -/
theorem matmul_at (lhs : FVec Ideal S128x128 .bf16) (rhs : FVec Ideal S128x1024 .bf16) (r : Fin 128) (q : Fin 1024) :
    matmul prod none lhs rhs (constant (F := Ideal) S128x1024 .f32 0x00000000#32) (ix2 r q)
      = ∑ b : Fin 128, lhs (ix2 b r) * rhs (ix2 b q) := by
  refine (Ideal.matmul_constant_zero_apply prod none lhs rhs (ix2 r q)).trans ?_
  rw [← Equiv.sum_comp (contrEquiv1 prod 128 rfl rfl).symm]
  refine Finset.sum_congr rfl fun b _ => ?_
  have hb := contrEquiv1_symm_val prod 128 rfl rfl b
  have el : prod.lhsIdx (ix2 r q) ((contrEquiv1 prod 128 rfl rfl).symm b) = ix2 b r := funext fun a => Fin.ext (by
    match a with
    | ⟨0, _⟩ => exact (lhs_contr _ _).trans hb
    | ⟨1, _⟩ => exact lhs_free _ _)
  have er : prod.rhsIdx (ix2 r q) ((contrEquiv1 prod 128 rfl rfl).symm b) = ix2 b q := funext fun a => Fin.ext (by
    match a with
    | ⟨0, _⟩ => exact (rhs_contr _ _).trans hb
    | ⟨1, _⟩ => exact rhs_free _ _)
  rw [el, er]

/-- THE BODY'S STORED VALUE at row r and column q of the block. -/
theorem pay_at (postB : Vec Ideal S128x128 .f32) (pre wB : Vec Ideal S128x1024 .f32) (r : Fin 128) (q : Fin 1024) :
    k0_pay1 (F := Ideal) postB pre wB (ix2 r q)
      = Ideal.ofBits .f32 0x3BA3D70A#32 *
          ((∑ b : Fin 128, postB (ix2 b r) * pre (ix2 b q)) * Ideal.ofBits .f32 0x3C000000#32
            - Ideal.ofBits .f32 0x38D1B717#32 * wB (ix2 r q)) := by
  unfold k0_pay1
  refine congrArg (fun e => Ideal.ofBits .f32 0x3BA3D70A#32 *
    (e * Ideal.ofBits .f32 0x3C000000#32 - Ideal.ofBits .f32 0x38D1B717#32 * wB (ix2 r q))) ?_
  exact matmul_at _ _ r q

end Cert.Hebbian.Block

end
-- ==== Proof.RowBlocks.lean ====
/-
  From blocks of rows to the whole array.

  The grid has 8 points. Point t is handed columns 128·t … 128·t + 127 of `post` (all 128 samples), the whole of
  `pre`, and rows 128·t … 128·t + 127 of the weights; it writes back rows 128·t … 128·t + 127 of the result.
  Row r of what it writes is therefore row 128·t + r of the Hebbian update of the three argument arrays: the batch
  sum at (r, q) reads `post` at unit 128·t + r and `pre` at unit q, exactly the entries the update at
  (128·t + r, q) sums. The 8 row blocks tile the 1024 rows (row p is in block p / 128), so after the run the result
  array is the update everywhere.
-/
import proofs.«158058_j56221121904852_2_alg».proof.Proof.Gen.KernelIdeal.Value
import proofs.«158058_j56221121904852_2_alg».proof.Proof.BlockUpdate
import Idealize.ShloMosaic.Lib.Pipeline.Value

noncomputable section

open Idealize.ShloMosaic Idealize.ShloMosaic.TcCoe Idealize.SL.Sem
open Idealize.ShloMosaic.Pipeline (Dat)

namespace Cert.Hebbian.Rows

open Cert.KernelIdeal Cert.KernelIdeal.Gen Idealize.ShloMosaic.ValueIdx

variable (m : (ℓ : Loc nD τ sig) → Buf (Elt Ideal) ℓ) (ρ : Dev nD → PrngReg)

theorem zero_off : (![0, 0] : Fin 2 → Nat) = fun _ => 0 := funext fun a => by fin_cases a <;> rfl

/-- WHERE THE BLOCKS SIT, decided over the 8 points: `post`'s block moves along the columns with the point, `pre`'s
    stays, the weights' and the result's move along the rows with the point. -/
theorem block_index : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- `post`'s block at point t: entry (b, r) is `post` at sample b, unit 128·t + r. -/
theorem post_block (c : Dev nD) (t : Fin cfg0.N) (x : S128x128.Idx) (k : S128x1024.Idx)
    (hk0 : (k 0).val = (x 0).val) (hk1 : (k 1).val = 128 * t.val + (x 1).val) :
    (iblk m c 0 t : Vec Ideal S128x128 .f32) x
      = (m ((c : Thread nD τ).loc main_arg1) : S128x1024.Idx → Elt Ideal .f32) k := by
  obtain ⟨e0, e1, -⟩ := block_index t
  unfold iblk
  rw [View.read_apply]
  show V m c main_arg1 _ = V m c main_arg1 k
  refine congrArg (V m c main_arg1) ?_
  funext a
  apply Fin.ext
  match a with
  | ⟨0, _⟩ => show win0_0.index t 0 * 128 + 1 * (x 0).val = (k 0).val; rw [e0, hk0]; omega
  | ⟨1, _⟩ => show win0_0.index t 1 * 128 + 1 * (x 1).val = (k 1).val; rw [e1, hk1]; omega

/-- `pre`'s block at every point is the whole array. -/
theorem pre_block (c : Dev nD) (t : Fin cfg0.N) (x : S128x1024.Idx) :
    (iblk m c 1 t : Vec Ideal S128x1024 .f32) x
      = (m ((c : Thread nD τ).loc main_arg0) : S128x1024.Idx → Elt Ideal .f32) x := by
  obtain ⟨-, -, e0, e1, -⟩ := block_index t
  unfold iblk
  rw [View.read_apply]
  show V m c main_arg0 _ = V m c main_arg0 x
  refine congrArg (V m c main_arg0) ?_
  funext a
  apply Fin.ext
  match a with
  | ⟨0, _⟩ => show win0_1.index t 0 * 128 + 1 * (x 0).val = (x 0).val; rw [e0]; omega
  | ⟨1, _⟩ => show win0_1.index t 1 * 1024 + 1 * (x 1).val = (x 1).val; rw [e1]; omega

/-- The weights' block at point t: entry (r, q) is the weights at row 128·t + r, column q. -/
theorem w_block (c : Dev nD) (t : Fin cfg0.N) (x : S128x1024.Idx) (k : S1024x1024.Idx)
    (hk0 : (k 0).val = 128 * t.val + (x 0).val) (hk1 : (k 1).val = (x 1).val) :
    (iblk m c 2 t : Vec Ideal S128x1024 .f32) x
      = (m ((c : Thread nD τ).loc main_arg2) : S1024x1024.Idx → Elt Ideal .f32) k := by
  obtain ⟨-, -, -, -, e0, e1, -⟩ := block_index t
  unfold iblk
  rw [View.read_apply]
  show V m c main_arg2 _ = V m c main_arg2 k
  refine congrArg (V m c main_arg2) ?_
  funext a
  apply Fin.ext
  match a with
  | ⟨0, _⟩ => show win0_2.index t 0 * 128 + 1 * (x 0).val = (k 0).val; rw [e0, hk0]; omega
  | ⟨1, _⟩ => show win0_2.index t 1 * 1024 + 1 * (x 1).val = (k 1).val; rw [e1, hk1]; omega

/-- ONE POINT, over plain arrays: if the three loaded blocks are the rows and columns of `post`, `pre`, `w` that
    point n is handed, then the body's stored value at (r, q) is the update at (128·n + r, q). -/
theorem point_eq (postB : Vec Ideal S128x128 .f32) (preB wB : Vec Ideal S128x1024 .f32)
    (pre post : S128x1024.Idx → EReal) (w : S1024x1024.Idx → EReal) (n : Nat)
    (hpost : ∀ (x : S128x128.Idx) (k : S128x1024.Idx), (k 0).val = (x 0).val → (k 1).val = 128 * n + (x 1).val →
      postB x = post k)
    (hpre : ∀ x : S128x1024.Idx, preB x = pre x)
    (hw : ∀ (x : S128x1024.Idx) (k : S1024x1024.Idx), (k 0).val = 128 * n + (x 0).val → (k 1).val = (x 1).val →
      wB x = w k)
    (j : S128x1024.Idx) (i : S1024x1024.Idx) (hi0 : (i 0).val = 128 * n + (j 0).val) (hi1 : (i 1).val = (j 1).val) :
    k0_pay1 (F := Ideal) postB preB wB j = Cert.Hebbian.update pre post w i := by
  obtain ⟨r, q, rfl⟩ : ∃ (r : Fin 128) (q : Fin 1024), j = ix2 r q := ⟨j 0, j 1, eq_ix2 j⟩
  obtain ⟨p, q', rfl⟩ : ∃ (p : Fin 1024) (q' : Fin 1024), i = ix2 p q' := ⟨i 0, i 1, eq_ix2 i⟩
  have hp : p.val = 128 * n + r.val := hi0
  obtain rfl : q' = q := Fin.ext hi1
  rw [Cert.Hebbian.Block.pay_at]
  show _ = Ideal.ofBits .f32 0x3BA3D70A#32 *
    ((∑ b : Fin 128, post (ix2 b p) * pre (ix2 b q')) * Ideal.ofBits .f32 0x3C000000#32
      - Ideal.ofBits .f32 0x38D1B717#32 * w (ix2 p q'))
  rw [hw (ix2 r q') (ix2 p q') hp rfl]
  refine congrArg (fun e => Ideal.ofBits .f32 0x3BA3D70A#32 *
    (e * Ideal.ofBits .f32 0x3C000000#32 - Ideal.ofBits .f32 0x38D1B717#32 * w (ix2 p q'))) ?_
  exact Finset.sum_congr rfl fun b _ => by rw [hpost (ix2 b r) (ix2 b p) rfl hp, hpre]

/-- WHAT POINT t WRITES BACK is block t of the update of the argument arrays. -/
theorem flushed_eq (c : Dev nD) (t : Fin cfg0.N) :
    (dats m 0 c).flushed 3 t = ((cfg0.win 3).blk t).view.read (Elt Ideal)
      (Cert.Hebbian.update (m ((c : Thread nD τ).loc main_arg0)) (m ((c : Thread nD τ).loc main_arg1))
        (m ((c : Thread nD τ).loc main_arg2))) := by
  rw [Cert.KernelIdeal.Value.flushed3]
  unfold out0_3
  rw [View.canon_unit_zero zero_off]
  simp only [View.ld_unit_zero (S := S128x128) zero_off, View.ld_unit_zero (S := S128x1024) zero_off]
  obtain ⟨-, -, -, -, -, -, e0, e1⟩ := block_index t
  funext j
  show k0_pay1 (F := Ideal) (iblk m c 0 t) (iblk m c 1 t) (iblk m c 2 t) j
    = Cert.Hebbian.update (m ((c : Thread nD τ).loc main_arg0)) (m ((c : Thread nD τ).loc main_arg1))
        (m ((c : Thread nD τ).loc main_arg2)) (((cfg0.win 3).blk t).view.emb j)
  refine point_eq (iblk m c 0 t) (iblk m c 1 t) (iblk m c 2 t) (m ((c : Thread nD τ).loc main_arg0))
    (m ((c : Thread nD τ).loc main_arg1)) (m ((c : Thread nD τ).loc main_arg2)) t.val
    (fun x k h0 h1 => post_block m c t x k h0 h1) (fun x => pre_block m c t x)
    (fun x k h0 h1 => w_block m c t x k h0 h1) j (((cfg0.win 3).blk t).view.emb j) ?_ ?_
  · show win0_3.index t 0 * 128 + 1 * (j 0).val = 128 * t.val + (j 0).val
    rw [e0]; omega
  · show win0_3.index t 1 * 1024 + 1 * (j 1).val = (j 1).val
    rw [e1]; omega

/-- An index of the result array is in point t's block iff each coordinate is in the block's range on its axis. -/
theorem mem_blk (t : Fin cfg0.N) (i : S1024x1024.Idx) :
    i ∈ ((cfg0.win 3).blk t).view.set ↔ ∀ a : Fin 2, win0_3.index t a * S128x1024.size a ≤ (i a).val
      ∧ (i a).val < win0_3.index t a * S128x1024.size a + S128x1024.size a := by
  show i ∈ ((View.whole main_v0).slice (win0_3.rect t)).set ↔ _
  rw [View.set_slice_whole, Rect.mem_set_unit]
  exact Iff.rfl

/-- THE ROW BLOCKS TILE THE ARRAY: row p is in the block of point p / 128. -/
theorem cover (i : S1024x1024.Idx) :
    ∃ t : Fin cfg0.N, (cfg0.win 3).flush t = true ∧ i ∈ ((cfg0.win 3).blk t).view.set := by
  have hi0 : (i 0).val < 1024 := (i 0).isLt
  have hi1 : (i 1).val < 1024 := (i 1).isLt
  have hN : cfg0.N = 8 := N_0
  obtain ⟨t, ht⟩ : ∃ t : Fin cfg0.N, t.val = (i 0).val / 128 := ⟨⟨(i 0).val / 128, by rw [hN]; omega⟩, rfl⟩
  obtain ⟨-, -, -, -, -, -, e0, e1⟩ := block_index t
  refine ⟨t, flush0_3 t, ?_⟩
  rw [mem_blk]
  intro a
  match a with
  | ⟨0, _⟩ =>
    show win0_3.index t 0 * 128 ≤ (i 0).val ∧ (i 0).val < win0_3.index t 0 * 128 + 128
    rw [e0, ht]; omega
  | ⟨1, _⟩ =>
    show win0_3.index t 1 * 1024 ≤ (i 1).val ∧ (i 1).val < win0_3.index t 1 * 1024 + 1024
    rw [e1]; omega

/-- THE RESULT ARRAY after the run is the update of the argument arrays. -/
theorem final (c : Dev nD) :
    (dats m 0 c).arrAt 3 cfg0.N = Cert.Hebbian.update (m ((c : Thread nD τ).loc main_arg0))
      (m ((c : Thread nD τ).loc main_arg1)) (m ((c : Thread nD τ).loc main_arg2)) :=
  (dats m 0 c).arrAt_eq_of_cover 3 _ (fun t _ => flushed_eq m c t) cover

/-- The kernel's run, read: the result array at the update of the arguments, the arguments unchanged. -/
theorem run : θ_run defs (onTc (τ := τ) (main (F := Ideal))) ⟨m, fun _ => 0, ρ⟩ fun r => ∀ c : Dev nD,
      r.2.mem ((c : Thread nD τ).loc main_v0) = Cert.Hebbian.update (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Hebbian.Rows

end
-- ==== Proof.RefUpdate.lean ====
/-
  The reference's result is the Hebbian update of its arguments.

  The reference contracts the batch axis of `post` and `pre` in one product of whole arrays, divides by 128,
  subtracts λ · w and scales by η. Read at an index (p, q), operation by operation, that is
  `η · ((∑ b, post(b, p) · pre(b, q)) / 128 − λ · w(p, q))`; the quotient by 128 is the product with 2⁻⁷
  (`Cert.Hebbian.mul_inv128_eq_div128`), which is the update as specified.
-/
import proofs.«158058_j56221121904852_2_alg».proof.Proof.Gen.ReferenceIdeal.Read
import proofs.«158058_j56221121904852_2_alg».proof.Proof.HebbianRule

noncomputable section

namespace Cert.Hebbian.Ref

open Cert.ReferenceIdeal Cert.ReferenceIdeal.Read Idealize.ShloMosaic Idealize.ShloMosaic.ValueIdx

/-- The left operand of the contraction, at output index `i` and batch entry `b`, is read at (b, i₀). -/
theorem lidx_eq (i : S1024x1024.Idx) (b : Fin 128) : lidx_main_v0 i b = ix2 b (i 0) :=
  funext fun a => Fin.ext (by match a with | ⟨0, _⟩ => rfl | ⟨1, _⟩ => rfl)

/-- The right operand is read at (b, i₁). -/
theorem ridx_eq (i : S1024x1024.Idx) (b : Fin 128) : ridx_main_v0 i b = ix2 b (i 1) :=
  funext fun a => Fin.ext (by match a with | ⟨0, _⟩ => rfl | ⟨1, _⟩ => rfl)

/-- The reference's last stage, as a function of its three arguments (`pre`, `post`, `w` in that order), is
    the update: the stages read at an index one by one, the two operand indices named, and the quotient by 128
    turned into the product with 2⁻⁷. -/
theorem result_eq (pre post : (⟨S128x1024, .f32⟩ : BufTy).Contents (Elt Ideal))
    (w : (⟨S1024x1024, .f32⟩ : BufTy).Contents (Elt Ideal)) :
    val_main_v7 (F := Ideal) pre post w = Cert.Hebbian.update pre post w := by
  funext i
  rw [val_main_v7_apply, val_main_v6_apply, val_main_cst_1_apply, val_main_v5_apply, val_main_v2_apply,
    val_main_v0_apply, val_main_v1_apply, val_main_cst_apply, val_main_v4_apply, val_main_v3_apply,
    val_main_cst_0_apply]
  simp only [lidx_eq, ridx_eq, Ideal.mulf_def, Ideal.subf_def, Ideal.hostDivf_def, Ideal.ofBits_def]
  rw [← Cert.Hebbian.mul_inv128_eq_div128]
  rfl

end Cert.Hebbian.Ref

end
-- ==== Proof.lean ====
/-
  The kernel and its reference compute one Hebbian weight update, on the extended reals.

  Both take `pre`, `post` of shape [128, 1024] (128 samples) and weights `w` of shape [1024, 1024] and return

      η · ( (∑ b, post(b, p) · pre(b, q)) ⊘ 128  −  λ · w(p, q) )        at (p, q),

  with η and λ the same two single-precision words in both programs. The kernel computes it 128 rows at a time over a
  grid of 8 points, rounding the operands of its matrix product to a narrow format (the identity on the extended
  reals) and taking the batch mean as a product with the word of 2⁻⁷; the reference contracts the whole arrays at once
  and takes the mean as a quotient by the word of 128. The parts:

  * `Proof/HebbianRule.lean`: the update as one function of the argument arrays, and the one law that joins the two
    sides — the product with 2⁻⁷ is the quotient by 128 on every extended real, so the inputs' finiteness is not used;
  * `Proof/RefUpdate.lean`: the reference's result, read at an index operation by operation, is that function;
  * `Proof/BlockUpdate.lean`: the kernel body's stored value at an index of its block of rows;
  * `Proof/RowBlocks.lean`: each grid point writes its block of rows of that function, the 8 blocks tile the array, so
    the kernel's result array is that function.

  The three frame claims are the generated frame runs (the reference's is its run with the result dropped); the
  idealization rewrote no operation, so there is nothing to preserve beyond the program's own text.
-/
import proofs.«158058_j56221121904852_2_alg».proof.Defs
import proofs.«158058_j56221121904852_2_alg».proof.Proof.Gen.Kernel
import proofs.«158058_j56221121904852_2_alg».proof.Proof.Gen.Kernel.Frame
import proofs.«158058_j56221121904852_2_alg».proof.Proof.Gen.KernelIdeal
import proofs.«158058_j56221121904852_2_alg».proof.Proof.Gen.KernelIdeal.Frame
import proofs.«158058_j56221121904852_2_alg».proof.Proof.Gen.ReferenceIdeal
import proofs.«158058_j56221121904852_2_alg».proof.Proof.Gen.ReferenceIdeal.Run
import proofs.«158058_j56221121904852_2_alg».proof.Proof.Gen.ReferenceIdeal.Read
import proofs.«158058_j56221121904852_2_alg».proof.Proof.Gen.Pre_finite_inputs
import proofs.«158058_j56221121904852_2_alg».proof.Proof.RowBlocks
import proofs.«158058_j56221121904852_2_alg».proof.Proof.RefUpdate
import Idealize.ShloMosaic.Adequacy
import Idealize.ShloMosaic.Init

noncomputable section

namespace Cert.Proof

open Idealize.ShloMosaic Idealize.ShloMosaic.TcCoe Idealize.SL.Sem

/-- The kernel as printed runs, its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs, its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the three arguments both programs end with the result array at the Hebbian update of
    those arguments: the kernel's by its row blocks, the reference's operation by operation. -/
theorem algebraic : Cert.algebraic_KernelIdeal_ReferenceIdeal := by
  intro m ρ m' ρ' _ hagree
  refine ⟨fun c => Cert.Hebbian.update (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2)),
    Cert.Hebbian.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Hebbian.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
